-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S64 : Shape := ⟨1, ![64]⟩
abbrev S64x64x1024 : Shape := ⟨3, ![64, 64, 1024]⟩
abbrev S64x1024x64 : Shape := ⟨3, ![64, 1024, 64]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S64x64x1024 : S_.BroadcastsInDim S64x64x1024 (![] : Fin 0 → Fin S64x64x1024.rank)
  reducesTo_S64x64x1024_S_d0_1_2 : S64x64x1024.ReducesTo [0, 1, 2] S_
  bcast_S_S64x1024x64 : S_.BroadcastsInDim S64x1024x64 (![] : Fin 0 → Fin S64x1024x64.rank)
  reducesTo_S64x1024x64_S_d0_1_2 : S64x1024x64.ReducesTo [0, 1, 2] S_

variable [Facts]

def fn {F : FTy → Type} [FloatOps F] (main_arg0 : FVec F S65536x1024 .f32) (main_arg1 : IVec S64 32) (main_arg2 : FVec F S64x64x1024 .f32) (main_arg3 : FVec F S64x1024x64 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S64x64x1024 .f32 := Host.absf main_arg2
  let main_cst_0 : FVec F S_ .f32 := constant S_ .f32 0x7F800000#32
  let main_v5 : FVec F S64x64x1024 .f32 := broadcastInDim S64x64x1024 ![] bcast_S_S64x64x1024 main_cst_0
  let main_v6 : IVec S64x64x1024 1 := cmpf .olt main_v4 main_v5
  let main_c_1 : IVec S_ 1 := constantI S_ 1 1#1
  let main_v7 : IVec S_ 1 := (fun x v => Host.reduce IntOp.andi x v reducesTo_S64x64x1024_S_d0_1_2 h_S_) main_v6 main_c_1
  let main_v8 : IVec S_ 1 := andi main_v3 main_v7
  let main_v9 : FVec F S64x1024x64 .f32 := Host.absf main_arg3
  let main_cst_2 : FVec F S_ .f32 := constant S_ .f32 0x7F800000#32
  let main_v10 : FVec F S64x1024x64 .f32 := broadcastInDim S64x1024x64 ![] bcast_S_S64x1024x64 main_cst_2
  let main_v11 : IVec S64x1024x64 1 := cmpf .olt main_v9 main_v10
  let main_c_3 : IVec S_ 1 := constantI S_ 1 1#1
  let main_v12 : IVec S_ 1 := (fun x v => Host.reduce IntOp.andi x v reducesTo_S64x1024x64_S_d0_1_2 h_S_) main_v11 main_c_3
  let main_v13 : IVec S_ 1 := andi main_v8 main_v12
  main_v13
-- ==== Kernel.lean ====
abbrev S65536x1024 : Shape := ⟨2, ![65536, 1024]⟩
abbrev S64 : Shape := ⟨1, ![64]⟩
abbrev S64x64x1024 : Shape := ⟨3, ![64, 64, 1024]⟩
abbrev S64x1024x64 : Shape := ⟨3, ![64, 1024, 64]⟩
abbrev S64x1024x1024 : Shape := ⟨3, ![64, 1024, 1024]⟩
abbrev S1x1024x1024 : Shape := ⟨3, ![1, 1024, 1024]⟩
abbrev S1x64x1024 : Shape := ⟨3, ![1, 64, 1024]⟩
abbrev S1x1024x64 : Shape := ⟨3, ![1, 1024, 64]⟩
abbrev S1024x1024 : Shape := ⟨2, ![1024, 1024]⟩
abbrev S64x1024 : Shape := ⟨2, ![64, 1024]⟩
abbrev S1024x64 : Shape := ⟨2, ![1024, 64]⟩

abbrev nBuf : Space → Nat
  | .hbm => 7
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S64, .i32⟩
  | .hbm, ⟨2, _⟩ => ⟨S64x64x1024, .f32⟩
  | .hbm, ⟨3, _⟩ => ⟨S64x1024x64, .f32⟩
  | .hbm, ⟨4, _⟩ => ⟨S64x1024x1024, .f32⟩
  | .hbm, ⟨5, _⟩ => ⟨S64x1024x1024, .f32⟩
  | .hbm, ⟨6, _⟩ => ⟨S65536x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x1024, .f32⟩
  | .local _ .vmem, ⟨7, _⟩ => ⟨S1x1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S65536x1024_S64x1024x1024 : S65536x1024.ShapeCasts S64x1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x1024_S1x1024x1024 : S1024x1024.ShapeCasts S1x1024x1024
  shapeCasts_S64x1024x1024_S65536x1024 : S64x1024x1024.ShapeCasts S65536x1024
  dot_S1024x1024_S64x1024_S1024x64_1_1_0_0_n_n_wf : DotDims.WF S1024x1024 S64x1024 S1024x64 [1] [1] [0] [0] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S64x64x1024.size a
  hwx0_1 : ∀ i : grid0.Coords, EltTy.bits .f32 = 32 ∨ (Rect.block (s := S64x64x1024) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x1024x64.size a
  hwx0_2 : ∀ i : grid0.Coords, EltTy.bits .f32 = 32 ∨ (Rect.block (s := S64x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S64x1024x1024.size a
  hwx0_3 : ∀ i : grid0.Coords, EltTy.bits .f32 = 32 ∨ (Rect.block (s := S64x1024x1024) S1x1024x1024.size (cc0_transform_3 i) (hinb0_3 i)).WholeWords (EltTy.packing .f32)

variable [Facts₀]

def dot_S1024x1024_S64x1024_S1024x64_1_1_0_0_n_n : DotDims S1024x1024 S64x1024 S1024x64 where
  lhsContracting := [1]
  rhsContracting := [1]
  lhsNonContracting := [0]
  rhsNonContracting := [0]
  lhsBatch := []
  rhsBatch := []
  wf := dot_S1024x1024_S64x1024_S1024x64_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S64 : Shape := ⟨1, ![64]⟩
abbrev S64x64x1024 : Shape := ⟨3, ![64, 64, 1024]⟩
abbrev S64x1024x64 : Shape := ⟨3, ![64, 1024, 64]⟩
abbrev S64x1024x1024 : Shape := ⟨3, ![64, 1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S64, .i32⟩
  | .hbm, ⟨2, _⟩ => ⟨S64x64x1024, .f32⟩
  | .hbm, ⟨3, _⟩ => ⟨S64x1024x64, .f32⟩
  | .hbm, ⟨4, _⟩ => ⟨S64x1024x1024, .f32⟩
  | .hbm, ⟨5, _⟩ => ⟨S64x1024x64, .f32⟩
  | .hbm, ⟨6, _⟩ => ⟨S_, .f32⟩
  | .hbm, ⟨7, _⟩ => ⟨S64x1024x64, .f32⟩
  | .hbm, ⟨8, _⟩ => ⟨S64x1024x64, .f32⟩
  | .hbm, ⟨9, _⟩ => ⟨S64x1024x1024, .f32⟩
  | .hbm, ⟨10, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  shapeCasts_S65536x1024_S64x1024x1024 : S65536x1024.ShapeCasts S64x1024x1024
  bcast_S_S64x1024x64 : S_.BroadcastsInDim S64x1024x64 (![] : Fin 0 → Fin S64x1024x64.rank)
  shapeCasts_S64x1024x1024_S65536x1024 : S64x1024x1024.ShapeCasts S65536x1024
  dot_S64x1024x1024_S64x64x1024_S64x1024x64_2_2_1_1_0_0_wf : DotDims.WF S64x1024x1024 S64x64x1024 S64x1024x64 [2] [2] [1] [1] [0] [0]
  dot_S64x1024x64_S64x1024x64_S64x1024x1024_2_2_1_1_0_0_wf : DotDims.WF S64x1024x64 S64x1024x64 S64x1024x1024 [2] [2] [1] [1] [0] [0]

variable [Facts₀]

def dot_S64x1024x1024_S64x64x1024_S64x1024x64_2_2_1_1_0_0 : DotDims S64x1024x1024 S64x64x1024 S64x1024x64 where
  lhsContracting := [2]
  rhsContracting := [2]
  lhsNonContracting := [1]
  rhsNonContracting := [1]
  lhsBatch := [0]
  rhsBatch := [0]
  wf := dot_S64x1024x1024_S64x64x1024_S64x1024x64_2_2_1_1_0_0_wf
def dot_S64x1024x64_S64x1024x64_S64x1024x1024_2_2_1_1_0_0 : DotDims S64x1024x64 S64x1024x64 S64x1024x1024 where
  lhsContracting := [2]
  rhsContracting := [2]
  lhsNonContracting := [1]
  rhsNonContracting := [1]
  lhsBatch := [0]
  rhsBatch := [0]
  wf := dot_S64x1024x64_S64x1024x64_S64x1024x1024_2_2_1_1_0_0_wf

class Facts : Prop extends Facts₀ where

variable [Facts]
-- ==== Proof.KernelBody.lean ====
/-
  What one grid point of the kernel stores, read at an index.

  The kernel's body loads one expert's token block `x0` ([1, 1024, 1024]: the leading axis is the expert's, of extent
  one inside the block), its first weights `x1` ([1, 64, 1024]) and its second weights `x2` ([1, 1024, 64]); drops the
  unit axis; multiplies tokens by the transposed first weights into a zero accumulator; takes the maximum with zero;
  multiplies by the transposed second weights into a zero accumulator; puts the unit axis back; stores. On the extended
  reals the changes of float format on the way into the two products are the identity, so the stored block at
  `(u, t, o)` is

      sum over h of  max (sum over d of x0 (0, t, d) * x1 (0, h, d), 0) * x2 (0, o, h).

  Both products contract axis 1 of the left operand with axis 1 of the right one (rows against rows), so the left
  operand is read at `(row, k)` and the right one at `(column, k)`.
-/
import proofs.«168396_j35983236005997_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The first product's dimension numbers: [1024, 1024] by [64, 1024], rows against rows, into [1024, 64]. -/
abbrev D1 : DotDims S1024x1024 S64x1024 S1024x64 := dot_S1024x1024_S64x1024_S1024x64_1_1_0_0_n_n
/-- The second product's: [1024, 64] by [1024, 64], rows against rows, into [1024, 1024]. -/
abbrev D2 : DotDims S1024x64 S1024x64 S1024x1024 := dot_S1024x64_S1024x64_S1024x1024_1_1_0_0_n_n

/-! ## The first product's operand indices, coordinate by coordinate -/

theorem d1_lhs_0 (i : S1024x64.Idx) (q : D1.contr.Idx) : (D1.lhsIdx i q 0).val = (i 0).val := by
  unfold DotDims.lhsIdx
  rw [dif_neg (show ¬(0 : Fin S1024x1024.rank) ∈ D1.lhsBatch by decide),
    dif_pos (show (0 : Fin S1024x1024.rank) ∈ D1.lhsNonContracting by decide)]
  rfl
theorem d1_lhs_1 (i : S1024x64.Idx) (q : D1.contr.Idx) : (D1.lhsIdx i q 1).val = (q ⟨0, by decide⟩).val :=
  D1.lhsIdx_val_of_single rfl i q
theorem d1_rhs_0 (i : S1024x64.Idx) (q : D1.contr.Idx) : (D1.rhsIdx i q 0).val = (i 1).val := by
  unfold DotDims.rhsIdx
  rw [dif_neg (show ¬(0 : Fin S64x1024.rank) ∈ D1.rhsBatch by decide),
    dif_pos (show (0 : Fin S64x1024.rank) ∈ D1.rhsNonContracting by decide)]
  rfl
theorem d1_rhs_1 (i : S1024x64.Idx) (q : D1.contr.Idx) : (D1.rhsIdx i q 1).val = (q ⟨0, by decide⟩).val :=
  D1.rhsIdx_val_of_single rfl i q

/-- The first product into a zero accumulator, at `(t, h)`: row `t` of the left operand against row `h` of the right. -/
theorem mm1_apply (lhs : FVec Ideal S1024x1024 .bf16) (rhs : FVec Ideal S64x1024 .bf16) (t : Fin 1024) (h : Fin 64) :
    FloatOps.matmul D1 none lhs rhs (constant (F := Ideal) S1024x64 .f32 0x00000000#32) (ix2 t h)
      = ∑ k : Fin 1024, lhs (ix2 t k) * rhs (ix2 h k) := by
  rw [Ideal.matmul_constant_zero_apply, ← Equiv.sum_comp (contrEquiv1 D1 1024 rfl rfl).symm]
  refine Finset.sum_congr rfl fun k _ => ?_
  have hk := contrEquiv1_symm_val D1 1024 rfl rfl k
  have el : D1.lhsIdx (ix2 t h) ((contrEquiv1 D1 1024 rfl rfl).symm k) = ix2 t k := funext fun a => Fin.ext (by
    match a with
    | ⟨0, _⟩ => exact d1_lhs_0 _ _
    | ⟨1, _⟩ => exact (d1_lhs_1 _ _).trans hk)
  have er : D1.rhsIdx (ix2 t h) ((contrEquiv1 D1 1024 rfl rfl).symm k) = ix2 h k := funext fun a => Fin.ext (by
    match a with
    | ⟨0, _⟩ => exact d1_rhs_0 _ _
    | ⟨1, _⟩ => exact (d1_rhs_1 _ _).trans hk)
  rw [el, er]

/-! ## The second product's operand indices -/

theorem d2_lhs_0 (i : S1024x1024.Idx) (q : D2.contr.Idx) : (D2.lhsIdx i q 0).val = (i 0).val := by
  unfold DotDims.lhsIdx
  rw [dif_neg (show ¬(0 : Fin S1024x64.rank) ∈ D2.lhsBatch by decide),
    dif_pos (show (0 : Fin S1024x64.rank) ∈ D2.lhsNonContracting by decide)]
  rfl
theorem d2_lhs_1 (i : S1024x1024.Idx) (q : D2.contr.Idx) : (D2.lhsIdx i q 1).val = (q ⟨0, by decide⟩).val :=
  D2.lhsIdx_val_of_single rfl i q
theorem d2_rhs_0 (i : S1024x1024.Idx) (q : D2.contr.Idx) : (D2.rhsIdx i q 0).val = (i 1).val := by
  unfold DotDims.rhsIdx
  rw [dif_neg (show ¬(0 : Fin S1024x64.rank) ∈ D2.rhsBatch by decide),
    dif_pos (show (0 : Fin S1024x64.rank) ∈ D2.rhsNonContracting by decide)]
  rfl
theorem d2_rhs_1 (i : S1024x1024.Idx) (q : D2.contr.Idx) : (D2.rhsIdx i q 1).val = (q ⟨0, by decide⟩).val :=
  D2.rhsIdx_val_of_single rfl i q

/-- The second product into a zero accumulator, at `(t, o)`: row `t` of the left operand against row `o` of the right. -/
theorem mm2_apply (lhs : FVec Ideal S1024x64 .bf16) (rhs : FVec Ideal S1024x64 .bf16) (t o : Fin 1024) :
    FloatOps.matmul D2 none lhs rhs (constant (F := Ideal) S1024x1024 .f32 0x00000000#32) (ix2 t o)
      = ∑ k : Fin 64, lhs (ix2 t k) * rhs (ix2 o k) := by
  rw [Ideal.matmul_constant_zero_apply, ← Equiv.sum_comp (contrEquiv1 D2 64 rfl rfl).symm]
  refine Finset.sum_congr rfl fun k _ => ?_
  have hk := contrEquiv1_symm_val D2 64 rfl rfl k
  have el : D2.lhsIdx (ix2 t o) ((contrEquiv1 D2 64 rfl rfl).symm k) = ix2 t k := funext fun a => Fin.ext (by
    match a with
    | ⟨0, _⟩ => exact d2_lhs_0 _ _
    | ⟨1, _⟩ => exact (d2_lhs_1 _ _).trans hk)
  have er : D2.rhsIdx (ix2 t o) ((contrEquiv1 D2 64 rfl rfl).symm k) = ix2 o k := funext fun a => Fin.ext (by
    match a with
    | ⟨0, _⟩ => exact d2_rhs_0 _ _
    | ⟨1, _⟩ => exact (d2_rhs_1 _ _).trans hk)
  rw [el, er]

/-! ## The stored block at an index -/

/-- What the body stores, at `(u, t, o)`, from the three loaded blocks. -/
theorem stored_apply (x0 : Vec Ideal S1x1024x1024 .f32) (x1 : Vec Ideal S1x64x1024 .f32) (x2 : Vec Ideal S1x1024x64 .f32)
    (u : Fin 1) (t o : Fin 1024) :
    k0_pay1 (F := Ideal) x0 x1 x2 (ix3 u t o)
      = ∑ h : Fin 64, max (∑ d : Fin 1024, x0 (ix3 (0 : Fin 1) t d) * x1 (ix3 (0 : Fin 1) h d)) 0
          * x2 (ix3 (0 : Fin 1) o h) := by
  unfold k0_pay1
  refine (shapeCast_ab_1ab_apply _ _ u t o).trans ?_
  refine (mm2_apply _ _ t o).trans ?_
  refine Finset.sum_congr rfl fun h _ => ?_
  refine congrArg₂ (· * ·) ?_ (shapeCast_1ab_ab_apply x2 _ o h)
  show max (FloatOps.matmul D1 none _ _ _ (ix2 t h)) (Ideal.ofBits .f32 0x00000000#32) = _
  rw [Ideal.ofBits_zero_f32]
  refine congrArg (fun s => max s 0) ?_
  refine (mm1_apply _ _ t h).trans ?_
  refine Finset.sum_congr rfl fun d _ => ?_
  exact congrArg₂ (· * ·) (shapeCast_1ab_ab_apply x0 _ t d) (shapeCast_1ab_ab_apply x1 _ h d)

end Cert.KernelIdeal.Body

end
-- ==== Proof.MoeSpec.lean ====
/-
  The function both programs compute, stated once over literal shapes.

  Tokens come grouped by expert: `X (e, t, d)` is feature `d` of token `t` of expert `e` (64 experts, 1024 tokens
  each, 1024 features). Expert `e` owns two weight matrices, `W1 (e, h, d)` (64 hidden units by 1024 features) and
  `W2 (e, o, h)` (1024 output features by 64 hidden units). The result at `(e, t, o)` is

      sum over h of  max (sum over d of X (e, t, d) * W1 (e, h, d), 0) * W2 (e, o, h)

  on the extended reals: a product with the transposed first matrix, the positive part, a product with the transposed
  second matrix. No law of arithmetic is needed to join the two programs to this function: each of them computes these
  two sums in this order, and only the spelling of the indices differs.
-/
import Idealize.ShloMosaic.Lib.ValueIdx
import Idealize.ShloMosaic.PureOps.Ideal

noncomputable section

open scoped BigOperators
open Idealize.ShloMosaic Idealize.ShloMosaic.ValueIdx

namespace Cert.MoeSpec

/-- Tokens grouped by expert, and the result: [expert, token, feature]. -/
abbrev Tok : Shape := ⟨3, ![64, 1024, 1024]⟩
/-- The first weights: [expert, hidden unit, input feature]. -/
abbrev Fc1 : Shape := ⟨3, ![64, 64, 1024]⟩
/-- The second weights: [expert, output feature, hidden unit]. -/
abbrev Fc2 : Shape := ⟨3, ![64, 1024, 64]⟩

/-- The argument and the result as the programs hold them: all 65536 tokens in one [token, feature] matrix. -/
abbrev Flat : Shape := ⟨2, ![65536, 1024]⟩

/-- The flat matrix and the grouped array have the same number of entries, so each reshapes to the other. -/
theorem flat_tok : Flat.ShapeCasts Tok := by decide
theorem tok_flat : Tok.ShapeCasts Flat := by decide

/-- Hidden unit `h` of token `t` of expert `e`: the positive part of the token's row against the unit's row. -/
def hiddenAt (X : Tok.Idx → EReal) (W1 : Fc1.Idx → EReal) (e : Fin 64) (t : Fin 1024) (h : Fin 64) : EReal :=
  max (∑ d : Fin 1024, X (ix3 e t d) * W1 (ix3 e h d)) 0

/-- Output feature `o` of token `t` of expert `e`: the hidden units against the output feature's row. -/
def outAt (X : Tok.Idx → EReal) (W1 : Fc1.Idx → EReal) (W2 : Fc2.Idx → EReal) (e : Fin 64) (t o : Fin 1024) : EReal :=
  ∑ h : Fin 64, hiddenAt X W1 e t h * W2 (ix3 e o h)

/-- The whole result array. -/
def expertMlp (X : Tok.Idx → EReal) (W1 : Fc1.Idx → EReal) (W2 : Fc2.Idx → EReal) : Tok.Idx → EReal :=
  fun i => outAt X W1 W2 (i 0) (i 1) (i 2)

/-- At an index given by its coordinates the result is `outAt` of them. -/
theorem expertMlp_ix3 (X : Tok.Idx → EReal) (W1 : Fc1.Idx → EReal) (W2 : Fc2.Idx → EReal) (e : Fin 64) (t o : Fin 1024) :
    expertMlp X W1 W2 (ix3 e t o) = outAt X W1 W2 e t o := rfl

/-- The whole program on flat matrices: group the tokens by expert (a reshape, row-major), apply each expert's two
    layers, flatten again. -/
def grouped (x : Flat.Idx → EReal) (W1 : Fc1.Idx → EReal) (W2 : Fc2.Idx → EReal) : Flat.Idx → EReal :=
  shapeCast Flat (expertMlp (shapeCast Tok x flat_tok) W1 W2) tok_flat

end Cert.MoeSpec

end
-- ==== Proof.KernelValue.lean ====
/-
  The idealized kernel's result array is the specification.

  The program reshapes the flat token matrix to [expert, token, feature] on the host, launches the kernel on a grid of
  64 points, one per expert, and reshapes the kernel's [expert, token, feature] result back to a flat matrix. At point
  `e` every window's block is slab `e` of its array along the expert axis (block index `(e, 0, 0)`, block sizes
  [1, 1024, 1024], [1, 64, 1024], [1, 1024, 64] and [1, 1024, 1024]), so an element `(u, r, k)` of a block is element
  `(e, r, k)` of the array. The body's stored block (read at an index in the body module) is therefore slab `e` of the
  specification applied to the arrays as the region finds them; the 64 slabs cover the result array; and the host
  reshape after the region reads that array.
-/
import proofs.«168396_j35983236005997_1_alg».proof.Proof.Gen.KernelIdeal.Frame
import proofs.«168396_j35983236005997_1_alg».proof.Proof.KernelBody
import proofs.«168396_j35983236005997_1_alg».proof.Proof.MoeSpec
import Idealize.ShloMosaic.Lib.Pipeline.Value
import Idealize.ShloMosaic.Lib.StableHlo.Run
import Idealize.ShloMosaic.Lib.Tactic

noncomputable section

open scoped BigOperators

namespace Cert.KernelIdeal.KValue

open Cert.KernelIdeal Cert.KernelIdeal.Gen Cert.KernelIdeal.Body Cert.MoeSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps over the grid: at point `t` every window's block index is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The expert a grid point works on. -/
def expertOf (t : Fin cfg0.N) : Fin 64 := Fin.cast N_0 t
/-- The grid point that works on an expert. -/
def pointOf (e : Fin 64) : Fin cfg0.N := Fin.cast N_0.symm e

/-- The specification applied to the arrays as the region finds them. -/
def G (c : Dev nD) : S64x1024x1024.Idx → EReal :=
  expertMlp (V m c main_v0) (V m c main_arg2) (V m c main_arg3)

/-! ## The input blocks are slabs of their arrays -/

/-- Element `(0, r, d)` of the token block at point `t` is token `r`, feature `d`, of the point's expert. -/
theorem tokens_apply (c : Dev nD) (t : Fin cfg0.N) (r d : Fin 1024) :
    (iblk m c 0 t : Vec Ideal S1x1024x1024 .f32) (ix3 (0 : Fin 1) r d)
      = (V m c main_v0 : S64x1024x1024.Idx → EReal) (ix3 (expertOf t) r d) := by
  obtain ⟨e0, e1, e2, -⟩ := idx_facts t
  unfold iblk
  rw [View.read_apply]
  show V m c main_v0 (((cfg0.win 0).blk t).view.emb _) = V m c main_v0 _
  congr 1
  funext a
  apply Fin.ext
  match a with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 1024 + 1 * d.val = d.val; omega

/-- Element `(0, h, d)` of the first-weights block at point `t` is row `h`, feature `d`, of the point's expert. -/
theorem fc1_apply (c : Dev nD) (t : Fin cfg0.N) (h : Fin 64) (d : Fin 1024) :
    (iblk m c 1 t : Vec Ideal S1x64x1024 .f32) (ix3 (0 : Fin 1) h d)
      = (V m c main_arg2 : S64x64x1024.Idx → EReal) (ix3 (expertOf t) h d) := by
  obtain ⟨-, -, -, e0, e1, e2, -⟩ := idx_facts t
  unfold iblk
  rw [View.read_apply]
  show V m c main_arg2 (((cfg0.win 1).blk t).view.emb _) = V m c main_arg2 _
  congr 1
  funext a
  apply Fin.ext
  match a with
  | ⟨0, _⟩ => show win0_1.index t (0 : Fin 3) * 1 + 1 * 0 = t.val; omega
  | ⟨1, _⟩ => show win0_1.index t (1 : Fin 3) * 64 + 1 * h.val = h.val; omega
  | ⟨2, _⟩ => show win0_1.index t (2 : Fin 3) * 1024 + 1 * d.val = d.val; omega

/-- Element `(0, o, h)` of the second-weights block at point `t` is row `o`, unit `h`, of the point's expert. -/
theorem fc2_apply (c : Dev nD) (t : Fin cfg0.N) (o : Fin 1024) (h : Fin 64) :
    (iblk m c 2 t : Vec Ideal S1x1024x64 .f32) (ix3 (0 : Fin 1) o h)
      = (V m c main_arg3 : S64x1024x64.Idx → EReal) (ix3 (expertOf t) o h) := by
  obtain ⟨-, -, -, -, -, -, e0, e1, e2, -⟩ := idx_facts t
  unfold iblk
  rw [View.read_apply]
  show V m c main_arg3 (((cfg0.win 2).blk t).view.emb _) = V m c main_arg3 _
  congr 1
  funext a
  apply Fin.ext
  match a with
  | ⟨0, _⟩ => show win0_2.index t (0 : Fin 3) * 1 + 1 * 0 = t.val; omega
  | ⟨1, _⟩ => show win0_2.index t (1 : Fin 3) * 1024 + 1 * o.val = o.val; omega
  | ⟨2, _⟩ => show win0_2.index t (2 : Fin 3) * 64 + 1 * h.val = h.val; omega

/-! ## What a point writes back -/

/-- The body's stored block, over blocks that are slab `e` of three arrays, is slab `e` of the specification of them. -/
theorem stored_eq_spec (X : Tok.Idx → EReal) (W1 : Fc1.Idx → EReal) (W2 : Fc2.Idx → EReal)
    (x0 : Vec Ideal S1x1024x1024 .f32) (x1 : Vec Ideal S1x64x1024 .f32) (x2 : Vec Ideal S1x1024x64 .f32) (e : Fin 64)
    (h0 : ∀ r d : Fin 1024, x0 (ix3 (0 : Fin 1) r d) = X (ix3 e r d))
    (h1 : ∀ (h : Fin 64) (d : Fin 1024), x1 (ix3 (0 : Fin 1) h d) = W1 (ix3 e h d))
    (h2 : ∀ (o : Fin 1024) (h : Fin 64), x2 (ix3 (0 : Fin 1) o h) = W2 (ix3 e o h))
    (u : Fin 1) (r o : Fin 1024) :
    k0_pay1 (F := Ideal) x0 x1 x2 (ix3 u r o) = expertMlp X W1 W2 (ix3 e r o) := by
  rw [stored_apply, expertMlp_ix3]
  unfold outAt hiddenAt
  refine Finset.sum_congr rfl fun h _ => ?_
  rw [h2 o h]
  refine congrArg (fun s => max s 0 * W2 (ix3 e o h)) (Finset.sum_congr rfl fun d _ => ?_)
  rw [h0 r d, h1 h d]

/-- WHAT POINT `t` WRITES BACK is block `t` of the specification of the arrays as the region finds them. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz]
  simp only [View.ld_unit_zero (S := S1x1024x1024) hz, View.ld_unit_zero (S := S1x64x1024) hz,
    View.ld_unit_zero (S := S1x1024x64) hz]
  obtain ⟨-, -, -, -, -, -, -, -, -, e0, e1, e2⟩ := idx_facts t
  funext j
  rw [View.read_apply]
  have hj1 : (j 1).val < 1024 := (j 1).isLt
  have hj2 : (j 2).val < 1024 := (j 2).isLt
  have hemb : ((cfg0.win 3).blk t).view.emb j = ix3 (expertOf t) (⟨(j 1).val, hj1⟩ : Fin 1024) (⟨(j 2).val, hj2⟩ : Fin 1024) := by
    funext a
    apply Fin.ext
    have hj0 : (j 0).val < 1 := (j 0).isLt
    match a with
    | ⟨0, _⟩ => show win0_3.index t (0 : Fin 3) * 1 + 1 * (j 0).val = t.val; omega
    | ⟨1, _⟩ => show win0_3.index t (1 : Fin 3) * 1024 + 1 * (j 1).val = (j 1).val; omega
    | ⟨2, _⟩ => show win0_3.index t (2 : Fin 3) * 1024 + 1 * (j 2).val = (j 2).val; omega
  rw [hemb]
  exact stored_eq_spec (V m c main_v0) (V m c main_arg2) (V m c main_arg3) (iblk m c 0 t) (iblk m c 1 t) (iblk m c 2 t)
    (expertOf t) (tokens_apply m c t) (fc1_apply m c t) (fc2_apply m c t) (⟨(j 0).val, (j 0).isLt⟩ : Fin 1) ⟨(j 1).val, hj1⟩ ⟨(j 2).val, hj2⟩

/-! ## The array after the run -/

/-- An index of the result array is in point `t`'s block iff each coordinate is in the block's range on its axis. -/
theorem mem_blk (t : Fin cfg0.N) (i : S64x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v1).slice (win0_3.rect t)).set ↔ _
  rw [View.set_slice_whole, Rect.mem_set_unit]
  exact Iff.rfl

/-- Every index of the result array is in the block of the point that works on its expert. -/
theorem covered (i : S64x1024x1024.Idx) :
    ∃ t : Fin cfg0.N, (cfg0.win 3).flush t = true ∧ i ∈ ((cfg0.win 3).blk t).view.set := by
  have h0 : (i 0).val < 64 := (i 0).isLt
  have h1 : (i 1).val < 1024 := (i 1).isLt
  have h2 : (i 2).val < 1024 := (i 2).isLt
  refine ⟨pointOf ⟨(i 0).val, h0⟩, flush0_3 _, ?_⟩
  rw [mem_blk]
  obtain ⟨-, -, -, -, -, -, -, -, -, e0, e1, e2⟩ := idx_facts (pointOf ⟨(i 0).val, h0⟩)
  have ev : (pointOf ⟨(i 0).val, h0⟩).val = (i 0).val := rfl
  intro a
  match a with
  | ⟨0, _⟩ =>
    show win0_3.index (pointOf ⟨(i 0).val, h0⟩) (0 : Fin 3) * 1 ≤ (i 0).val
      ∧ (i 0).val < win0_3.index (pointOf ⟨(i 0).val, h0⟩) (0 : Fin 3) * 1 + 1
    omega
  | ⟨1, _⟩ =>
    show win0_3.index (pointOf ⟨(i 0).val, h0⟩) (1 : Fin 3) * 1024 ≤ (i 1).val
      ∧ (i 1).val < win0_3.index (pointOf ⟨(i 0).val, h0⟩) (1 : Fin 3) * 1024 + 1024
    omega
  | ⟨2, _⟩ =>
    show win0_3.index (pointOf ⟨(i 0).val, h0⟩) (2 : Fin 3) * 1024 ≤ (i 2).val
      ∧ (i 2).val < win0_3.index (pointOf ⟨(i 0).val, h0⟩) (2 : Fin 3) * 1024 + 1024
    omega

/-- THE RESULT ARRAY after the region: the specification of the arrays as the region finds them. -/
theorem final (c : Dev nD) : (dats m 0 c).arrAt 3 cfg0.N = G m c :=
  (dats m 0 c).arrAt_eq_of_cover 3 (G m c) (fun t _ => flushed_eq m c t) covered

end Cert.KernelIdeal.KValue

end
-- ==== Proof.KernelRun.lean ====
/-
  The idealized kernel's program, run: its result is the specification on flat matrices.

  Around the region the program has one host line before it (the reshape that groups the tokens by expert, whose
  result the first window stages) and one after it (the reshape that flattens the kernel's result). The array the
  region finds in the first window is therefore the reshape of the flat argument; the other two windows stage the
  weight arguments as launched; and the flat result is the reshape of the result array after the region, which is
  the specification of those three arrays.
-/
import proofs.«168396_j35983236005997_1_alg».proof.Proof.KernelValue

noncomputable section

namespace Cert.KernelIdeal.KValue

open Cert.KernelIdeal Cert.KernelIdeal.Gen Cert.KernelIdeal.Body Cert.MoeSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The host line before the region: the first window's array is the flat argument grouped by expert. -/
theorem tokens_grouped (c : Dev nD) :
    (V m c main_v0 : S64x1024x1024.Idx → EReal)
      = shapeCast S64x1024x1024 (m ((c : Thread nD τ).loc main_arg0)) shapeCasts_S65536x1024_S64x1024x1024 := by
  show StableHlo.after hostOps0 (fun b => m (c, b)) (Proc.devRef .tc main_v0) = _
  after_results
  rfl

/-- The host line after the region: the flat result is the reshape of the result array after the region. -/
theorem result_flat (c : Dev nD) : Pipeline.afterTail₀ cfgs (dats m) 0 (V0 m) [hostOps1] c main_v2
    = shapeCast S65536x1024 ((dats m 0 c).arrAt 3 cfg0.N) shapeCasts_S64x1024x1024_S65536x1024 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = (dats m 0 c).arrAt 3 cfg0.N :=
    Pipeline.withArrays_arr spec0 launch0.win.arr_inj c (V0 m c) (fun w => (dats m 0 c).arrAt w cfg0.N) 3
  rw [hw]
  rfl

/-- The specification of the arrays as the region finds them, over the arguments as launched. -/
theorem G_eq (c : Dev nD) :
    G m c = expertMlp (shapeCast Tok (m ((c : Thread nD τ).loc main_arg0)) flat_tok)
      (m ((c : Thread nD τ).loc main_arg2)) (m ((c : Thread nD τ).loc main_arg3)) := by
  unfold G
  rw [tokens_grouped m c, V_main_arg2 m c, V_main_arg3 m c]

/-- The flat result after the whole program. -/
theorem result_eq (c : Dev nD) : Pipeline.afterTail₀ cfgs (dats m) 0 (V0 m) [hostOps1] c main_v2
    = grouped (m ((c : Thread nD τ).loc main_arg0)) (m ((c : Thread nD τ).loc main_arg2)) (m ((c : Thread nD τ).loc main_arg3)) := by
  rw [result_flat, final, G_eq]
  rfl

/-- THE RUN: every weakly fair execution terminates with the flat result at the specification of the arguments, and the
    arguments unchanged. -/
theorem run : θ_run defs (onTc (τ := τ) (main (F := Ideal))) ⟨m, fun _ => 0, ρ⟩ fun r => ∀ c : Dev nD,
      r.2.mem ((c.tc : Thread nD τ).loc main_v2)
        = grouped (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.KValue

end
-- ==== Proof.RefValue.lean ====
/-
  The reference program computes the specification.

  The reference reshapes the flat token matrix to [expert, token, feature], contracts the feature axis against the
  first weights expert by expert (a batched product: the expert axis is carried along, axis 2 of both operands is
  summed), takes the maximum with a zero splat, contracts the hidden axis against the second weights the same way, and
  reshapes back. Read at an index `(e, t, o)` through the generated one-operation-at-a-time lemmas, that is
  `outAt` of the specification; the only work is to name the operand indices of the two products by their coordinates.
-/
import proofs.«168396_j35983236005997_1_alg».proof.Proof.Gen.ReferenceIdeal.Read
import proofs.«168396_j35983236005997_1_alg».proof.Proof.MoeSpec
import Idealize.ShloMosaic.PureOps.Ideal.Laws

noncomputable section

open scoped BigOperators

namespace Cert.ReferenceIdeal.RefValue

open Cert.ReferenceIdeal Cert.ReferenceIdeal.Read Cert.MoeSpec Idealize.ShloMosaic Idealize.ShloMosaic.ValueIdx

/-! ## The two products' operand indices by coordinates -/

/-- First product, left operand: the token's row, feature `k`. -/
theorem lidx1 (e : Fin 64) (t : Fin 1024) (h : Fin 64) (k : Fin 1024) : lidx_main_v1 (ix3 e t h) k = ix3 e t k :=
  funext fun a => Fin.ext (by match a with | ⟨0, _⟩ => rfl | ⟨1, _⟩ => rfl | ⟨2, _⟩ => rfl)
/-- First product, right operand: the hidden unit's row, feature `k`. -/
theorem ridx1 (e : Fin 64) (t : Fin 1024) (h : Fin 64) (k : Fin 1024) : ridx_main_v1 (ix3 e t h) k = ix3 e h k :=
  funext fun a => Fin.ext (by match a with | ⟨0, _⟩ => rfl | ⟨1, _⟩ => rfl | ⟨2, _⟩ => rfl)
/-- Second product, left operand: the token's hidden activations, unit `k`. -/
theorem lidx3 (e : Fin 64) (t o : Fin 1024) (k : Fin 64) : lidx_main_v3 (ix3 e t o) k = ix3 e t k :=
  funext fun a => Fin.ext (by match a with | ⟨0, _⟩ => rfl | ⟨1, _⟩ => rfl | ⟨2, _⟩ => rfl)
/-- Second product, right operand: the output feature's row, unit `k`. -/
theorem ridx3 (e : Fin 64) (t o : Fin 1024) (k : Fin 64) : ridx_main_v3 (ix3 e t o) k = ix3 e o k :=
  funext fun a => Fin.ext (by match a with | ⟨0, _⟩ => rfl | ⟨1, _⟩ => rfl | ⟨2, _⟩ => rfl)

/-! ## The stages -/

/-- After the maximum with zero: the specification's hidden activation of the grouped tokens. -/
theorem hidden_eq (x0 : (⟨S65536x1024, .f32⟩ : BufTy).Contents (Elt Ideal)) (x2 : (⟨S64x64x1024, .f32⟩ : BufTy).Contents (Elt Ideal))
    (e : Fin 64) (t : Fin 1024) (h : Fin 64) :
    val_main_v2 (F := Ideal) x0 x2 (ix3 e t h) = hiddenAt (val_main_v0 (F := Ideal) x0) x2 e t h := by
  rw [val_main_v2_apply, val_main_v1_apply, val_main_call0_v0_apply, val_main_call0_cst_apply]
  show max _ (Ideal.ofBits .f32 0x00000000#32) = _
  rw [Ideal.ofBits_zero_f32]
  unfold hiddenAt
  refine congrArg (fun s => max s 0) (Finset.sum_congr rfl fun d _ => ?_)
  rw [lidx1, ridx1]

/-- After the second product: the specification of the grouped tokens. -/
theorem mlp_eq (x0 : (⟨S65536x1024, .f32⟩ : BufTy).Contents (Elt Ideal)) (x2 : (⟨S64x64x1024, .f32⟩ : BufTy).Contents (Elt Ideal))
    (x3 : (⟨S64x1024x64, .f32⟩ : BufTy).Contents (Elt Ideal)) :
    val_main_v3 (F := Ideal) x0 x2 x3 = expertMlp (val_main_v0 (F := Ideal) x0) x2 x3 := by
  funext i
  obtain ⟨e, t, o, rfl⟩ : ∃ (e : Fin 64) (t : Fin 1024) (o : Fin 1024), i = ix3 e t o := ⟨i 0, i 1, i 2, eq_ix3 i⟩
  rw [val_main_v3_apply, expertMlp_ix3]
  unfold outAt
  refine Finset.sum_congr rfl fun h _ => ?_
  rw [lidx3, ridx3, hidden_eq]

/-- The reference's result is the specification on flat matrices. -/
theorem result_eq (x0 : (⟨S65536x1024, .f32⟩ : BufTy).Contents (Elt Ideal)) (x2 : (⟨S64x64x1024, .f32⟩ : BufTy).Contents (Elt Ideal))
    (x3 : (⟨S64x1024x64, .f32⟩ : BufTy).Contents (Elt Ideal)) :
    val_main_v4 (F := Ideal) x0 x2 x3 = grouped x0 x2 x3 := by
  unfold val_main_v4 grouped
  rw [mlp_eq]
  rfl

end Cert.ReferenceIdeal.RefValue

end
-- ==== Proof.lean ====
/-
  The two programs compute one function.

  Both take a flat [65536, 1024] token matrix and two stacks of per-expert weights, group the tokens by expert
  (1024 consecutive tokens each), and apply to every token the two layers of its expert: the product with the
  transposed first weights, the maximum with zero, the product with the transposed second weights. The kernel does
  this one expert per grid point, on blocks, with its matrix products fed operands rounded to a narrower float
  format; the reference does it with two batched products over the whole arrays. On the extended reals the changes of
  format are the identity and a product into a zero accumulator is the plain sum, so each side is, index by index,

      y (e, t, o) = sum over h of  max (sum over d of x (e, t, d) * w1 (e, h, d), 0) * w2 (e, o, h),

  read through the same two reshapes. No finiteness of the inputs is used: the two sides are the same sums in the same
  order. The frames of the two kernel programs are the generated ones; the reference's frame is its generated run with
  the result dropped; the idealization rewrote nothing, so it preserves the kernel trivially.
-/
import proofs.«168396_j35983236005997_1_alg».proof.Defs
import proofs.«168396_j35983236005997_1_alg».proof.Proof.Gen.Kernel
import proofs.«168396_j35983236005997_1_alg».proof.Proof.Gen.Kernel.Frame
import proofs.«168396_j35983236005997_1_alg».proof.Proof.Gen.KernelIdeal
import proofs.«168396_j35983236005997_1_alg».proof.Proof.Gen.KernelIdeal.Frame
import proofs.«168396_j35983236005997_1_alg».proof.Proof.Gen.ReferenceIdeal
import proofs.«168396_j35983236005997_1_alg».proof.Proof.Gen.ReferenceIdeal.Run
import proofs.«168396_j35983236005997_1_alg».proof.Proof.Gen.ReferenceIdeal.Read
import proofs.«168396_j35983236005997_1_alg».proof.Proof.Gen.Pre_finite_inputs
import proofs.«168396_j35983236005997_1_alg».proof.Proof.KernelRun
import proofs.«168396_j35983236005997_1_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the flat result at the specification of the
    arguments: the kernel's by its run, the reference's by its run read one operation at a time. -/
theorem algebraic : Cert.algebraic_KernelIdeal_ReferenceIdeal := by
  intro m ρ m' ρ' _ hagree
  refine ⟨fun c => Cert.MoeSpec.grouped (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
